-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : FVec F S64x128 .f32) (main_arg2 : FVec F S64 .f32) (main_arg3 : FVec F S32x64 .f32) (main_arg4 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_v13 main_v16
-- ==== Kernel.lean ====
abbrev S100000x128 : Shape := ⟨2, ![100000, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S64x1 : Shape := ⟨2, ![64, 1]⟩
abbrev S32x1 : Shape := ⟨2, ![32, 1]⟩
abbrev S100000x32 : Shape := ⟨2, ![100000, 32]⟩
abbrev S4000x128 : Shape := ⟨2, ![4000, 128]⟩
abbrev S4000x32 : Shape := ⟨2, ![4000, 32]⟩
abbrev S64x4000 : Shape := ⟨2, ![64, 4000]⟩
abbrev S32x4000 : Shape := ⟨2, ![32, 4000]⟩
abbrev S4000 : Shape := ⟨1, ![4000]⟩
abbrev S1x4000 : Shape := ⟨2, ![1, 4000]⟩

abbrev nBuf : Space → Nat
  | .hbm => 8
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S64x1, .f32⟩
  | .hbm, ⟨6, _⟩ => ⟨S32x1, .f32⟩
  | .hbm, ⟨7, _⟩ => ⟨S100000x32, .f32⟩
  | .local _ .vmem, ⟨0, _⟩ => ⟨S4000x128, .f32⟩
  | .local _ .vmem, ⟨1, _⟩ => ⟨S4000x128, .f32⟩
  | .local _ .vmem, ⟨2, _⟩ => ⟨S64x128, .f32⟩
  | .local _ .vmem, ⟨3, _⟩ => ⟨S64x1, .f32⟩
  | .local _ .vmem, ⟨4, _⟩ => ⟨S32x64, .f32⟩
  | .local _ .vmem, ⟨5, _⟩ => ⟨S32x1, .f32⟩
  | .local _ .vmem, ⟨6, _⟩ => ⟨S4000x32, .f32⟩
  | .local _ .vmem, ⟨7, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S64x1 : S64.ShapeCasts S64x1
  shapeCasts_S32_S32x1 : S32.ShapeCasts S32x1
  inb_S4000x128_S4000x128_0_0 : ∀ a, (![0, 0] : Fin 2 → Nat) a + S4000x128.size a ≤ S4000x128.size a
  h_S4000x128 : 0 < S4000x128.numel
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4000 : S64x1.Broadcasts S64x4000
  inb_S32x64_S32x64_0_0 : ∀ a, (![0, 0] : Fin 2 → Nat) a + S32x64.size a ≤ S32x64.size a
  h_S32x64 : 0 < S32x64.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4000 : S32x1.Broadcasts S32x4000
  reduces_S32x4000_S4000 : S32x4000.Reduces [0] S4000
  shapeCasts_S4000_S1x4000 : S4000.ShapeCasts S1x4000
  broadcasts_S1x4000_S32x4000 : S1x4000.Broadcasts S32x4000
  transposes_S32x4000_p1_0_S4000x32 : S32x4000.Transposes [1, 0] S4000x32
  inb_S4000x32_S4000x32_0_0 : ∀ a, (![0, 0] : Fin 2 → Nat) a + S4000x32.size a ≤ S4000x32.size a
  h_S4000x32 : 0 < S4000x32.numel
  dot_S64x128_S4000x128_S64x4000_1_1_0_0_n_n_wf : DotDims.WF S64x128 S4000x128 S64x4000 [1] [1] [0] [0] [] []
  dot_S32x64_S64x4000_S32x4000_1_0_0_1_n_n_wf : DotDims.WF S32x64 S64x4000 S32x4000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x32.size a ≤ S100000x32.size a
  hwx0_5 : ∀ i : grid0.Coords, EltTy.bits .f32 = 32 ∨ (Rect.block (s := S100000x32) S4000x32.size (cc0_transform_5 i) (hinb0_5 i)).WholeWords (EltTy.packing .f32)

variable [Facts₀]

def dot_S64x128_S4000x128_S64x4000_1_1_0_0_n_n : DotDims S64x128 S4000x128 S64x4000 where
  lhsContracting := [1]
  rhsContracting := [1]
  lhsNonContracting := [0]
  rhsNonContracting := [0]
  lhsBatch := []
  rhsBatch := []
  wf := dot_S64x128_S4000x128_S64x4000_1_1_0_0_n_n_wf
def dot_S32x64_S64x4000_S32x4000_1_0_0_1_n_n : DotDims S32x64 S64x4000 S32x4000 where
  lhsContracting := [1]
  rhsContracting := [0]
  lhsNonContracting := [0]
  rhsNonContracting := [1]
  lhsBatch := []
  rhsBatch := []
  wf := dot_S32x64_S64x4000_S32x4000_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S128x64 : Shape := ⟨2, ![128, 64]⟩
abbrev S100000x64 : Shape := ⟨2, ![100000, 64]⟩
abbrev S1x64 : Shape := ⟨2, ![1, 64]⟩
abbrev S_ : Shape := ⟨0, ![]⟩
abbrev S64x32 : Shape := ⟨2, ![64, 32]⟩
abbrev S100000x32 : Shape := ⟨2, ![100000, 32]⟩
abbrev S1x32 : Shape := ⟨2, ![1, 32]⟩
abbrev S100000 : Shape := ⟨1, ![100000]⟩
abbrev S100000x1 : Shape := ⟨2, ![100000, 1]⟩

abbrev nBuf : Space → Nat
  | .hbm => 33
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S128x64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S100000x64, .f32⟩
  | .hbm, ⟨12, _⟩ => ⟨S100000x64, .f32⟩
  | .hbm, ⟨13, _⟩ => ⟨S64x32, .f32⟩
  | .hbm, ⟨14, _⟩ => ⟨S100000x32, .f32⟩
  | .hbm, ⟨15, _⟩ => ⟨S1x32, .f32⟩
  | .hbm, ⟨16, _⟩ => ⟨S100000x32, .f32⟩
  | .hbm, ⟨17, _⟩ => ⟨S100000x32, .f32⟩
  | .hbm, ⟨18, _⟩ => ⟨S_, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x32, .f32⟩
  | .hbm, ⟨25, _⟩ => ⟨S100000x32, .f32⟩
  | .hbm, ⟨26, _⟩ => ⟨S100000x32, .f32⟩
  | .hbm, ⟨27, _⟩ => ⟨S_, .f32⟩
  | .hbm, ⟨28, _⟩ => ⟨S100000, .f32⟩
  | .hbm, ⟨29, _⟩ => ⟨S100000x1, .f32⟩
  | .hbm, ⟨30, _⟩ => ⟨S100000x1, .f32⟩
  | .hbm, ⟨31, _⟩ => ⟨S100000x32, .f32⟩
  | .hbm, ⟨32, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_cst : Ref sig .tc := ⟨.hbm, 18, rfl⟩
abbrev main_call1_v0 : Ref sig .tc := ⟨.hbm, 19, rfl⟩
abbrev main_call1_cst_0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_cst_1 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_v11 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LogProb.lean ====
/-
  The classifier's log-probabilities, one example at a time, on the extended reals.

  An example is a row x of 128 features. Its hidden layer is relu (W1 x + b1), 64 units; its logits are z = W2 h + b2,
  32 classes; its log-probabilities are z_c - M - log (sum over c' of exp (z_c' - M)), where M is the largest logit, taken
  as the fold of max from the word of minus infinity over the 32 classes. Everything is stated for ONE row and arbitrary
  weights, so that a block of rows and the whole array of rows are the same function, row by row; the whole array's
  function G reads row (i 0) of the examples and class (i 1).

  The two float words that occur (zero, minus infinity) stay as the words they are: the same word stands on both sides of
  every equation, and the only fact used of either is that the fold of max from a value is never below that value.
-/
import Idealize.ShloMosaic.PureOps.Ideal
import Idealize.ShloMosaic.Lib.ValueIdx

noncomputable section

open scoped BigOperators

namespace Cert.LogProb

open Idealize.ShloMosaic Idealize.ShloMosaic.ValueIdx

/-- Hidden unit h of one example: the rectified affine form max (sum_k W1[h,k] * x[k] + b1[h]) 0. -/
def hiddenUnit (x : Fin 128 → EReal) (W1 : Fin 64 → Fin 128 → EReal) (b1 : Fin 64 → EReal) (h : Fin 64) : EReal :=
  max ((∑ k : Fin 128, W1 h k * x k) + b1 h) (Ideal.ofBits .f32 0x00000000#32)

/-- Logit c of one example: sum_h W2[c,h] * hidden[h] + b2[c]. -/
def logit (x : Fin 128 → EReal) (W1 : Fin 64 → Fin 128 → EReal) (b1 : Fin 64 → EReal) (W2 : Fin 32 → Fin 64 → EReal)
    (b2 : Fin 32 → EReal) (c : Fin 32) : EReal :=
  (∑ h : Fin 64, W2 c h * hiddenUnit x W1 b1 h) + b2 c

/-- The largest of 32 values: the fold of max over the classes, started at the word of minus infinity. -/
def top (z : Fin 32 → EReal) : EReal :=
  (Finset.univ : Finset (Fin 32)).fold max (Ideal.ofBits .f32 0xFF800000#32) z

/-- The log-softmax of 32 values at class c, shifted by their largest. -/
def logSoftmax (z : Fin 32 → EReal) (c : Fin 32) : EReal :=
  (z c - top z) - Ideal.log (∑ c' : Fin 32, Ideal.exp (z c' - top z))

/-- One example's log-probability of class c. -/
def logProb (x : Fin 128 → EReal) (W1 : Fin 64 → Fin 128 → EReal) (b1 : Fin 64 → EReal) (W2 : Fin 32 → Fin 64 → EReal)
    (b2 : Fin 32 → EReal) (c : Fin 32) : EReal :=
  logSoftmax (logit x W1 b1 W2 b2) c

/-- The fold of max from a starting value is at least that value, so taking the maximum with it again changes nothing. -/
theorem max_start_top (z : Fin 32 → EReal) : max (Ideal.ofBits .f32 0xFF800000#32) (top z) = top z :=
  max_eq_right ((Finset.le_fold_max _).mpr (Or.inl le_rfl))

/-- The whole array of log-probabilities as ONE function of the five argument arrays: entry (n, c) is example n's
    log-probability of class c. -/
def G (x : (⟨2, ![100000, 128]⟩ : Shape).Idx → EReal) (W1 : (⟨2, ![64, 128]⟩ : Shape).Idx → EReal)
    (b1 : (⟨1, ![64]⟩ : Shape).Idx → EReal) (W2 : (⟨2, ![32, 64]⟩ : Shape).Idx → EReal)
    (b2 : (⟨1, ![32]⟩ : Shape).Idx → EReal) : (⟨2, ![100000, 32]⟩ : Shape).Idx → EReal :=
  fun i => logProb (fun k => x (ix2 (i 0 : Fin 100000) k)) (fun h k => W1 (ix2 h k)) (fun h => b1 (ix1 h))
    (fun c h => W2 (ix2 c h)) (fun c => b2 (ix1 c)) (i 1 : Fin 32)

/-- G at an index written by coordinates. -/
theorem G_apply (x : (⟨2, ![100000, 128]⟩ : Shape).Idx → EReal) (W1 : (⟨2, ![64, 128]⟩ : Shape).Idx → EReal)
    (b1 : (⟨1, ![64]⟩ : Shape).Idx → EReal) (W2 : (⟨2, ![32, 64]⟩ : Shape).Idx → EReal)
    (b2 : (⟨1, ![32]⟩ : Shape).Idx → EReal) (n : Fin 100000) (c : Fin 32) :
    G x W1 b1 W2 b2 (ix2 n c) = logProb (fun k => x (ix2 n k)) (fun h k => W1 (ix2 h k)) (fun h => b1 (ix1 h))
      (fun c h => W2 (ix2 c h)) (fun c => b2 (ix1 c)) c := rfl

end Cert.LogProb

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockRows.lean ====
/-
  What the kernel's body stores, entry by entry.

  The body holds a block of 4000 examples and works transposed: classes and hidden units run down the rows, the block's
  examples across the columns. Its stored value is the transpose back, so entry (r, c) of the stored block is computed
  from column r of the transposed intermediates, that is from example r of the block alone: the first product gives
  hidden unit h of example r as sum_k W1[h,k] * x[r,k], the second gives its logit c as sum_h W2[c,h] * hidden[h], the two
  column reductions (the largest logit, the sum of the shifted exponentials) run over the 32 classes of that one example,
  and the two biases arrive as columns [64,1] and [32,1] repeated across the examples. So entry (r, c) is
  Cert.LogProb.logProb of example r's features and the weights, at class c.

  Each operation is read at an index written by coordinates (one small lemma per operation that is not elementwise),
  and the body's one payload is then read through them from the outside in.
-/
import proofs.«124576_g86260123173820_cont_9to1c4b_648_7_alg».proof.Proof.Gen.KernelIdeal.Skeleton
import proofs.«124576_g86260123173820_cont_9to1c4b_648_7_alg».proof.Proof.LogProb
import proofs.«124576_g86260123173820_cont_9to1c4b_648_7_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert.LogProb

/-- The first product's dimension numbers: W1 [64,128] against the block [4000,128], both contracted on their axis 1. -/
abbrev d1 : DotDims S64x128 S4000x128 S64x4000 := dot_S64x128_S4000x128_S64x4000_1_1_0_0_n_n
/-- The second product's: W2 [32,64] against the hidden layer [64,4000], a plain matrix product. -/
abbrev d2 : DotDims S32x64 S64x4000 S32x4000 := dot_S32x64_S64x4000_S32x4000_1_0_0_1_n_n

/-! ## The two products' operand indices -/

theorem lhs1_0 (i : S64x4000.Idx) (q : d1.contr.Idx) : (d1.lhsIdx i q 0).val = (i 0).val := by
  unfold DotDims.lhsIdx
  rw [dif_neg (show ¬(0 : Fin S64x128.rank) ∈ d1.lhsBatch by decide), dif_pos (show (0 : Fin S64x128.rank) ∈ d1.lhsNonContracting by decide)]
  rfl
theorem lhs1_1 (i : S64x4000.Idx) (q : d1.contr.Idx) : (d1.lhsIdx i q 1).val = (q ⟨0, by decide⟩).val :=
  d1.lhsIdx_val_of_single rfl i q
theorem rhs1_0 (i : S64x4000.Idx) (q : d1.contr.Idx) : (d1.rhsIdx i q 0).val = (i 1).val := by
  unfold DotDims.rhsIdx
  rw [dif_neg (show ¬(0 : Fin S4000x128.rank) ∈ d1.rhsBatch by decide), dif_pos (show (0 : Fin S4000x128.rank) ∈ d1.rhsNonContracting by decide)]
  rfl
theorem rhs1_1 (i : S64x4000.Idx) (q : d1.contr.Idx) : (d1.rhsIdx i q 1).val = (q ⟨0, by decide⟩).val :=
  d1.rhsIdx_val_of_single rfl i q

theorem lhs2_0 (i : S32x4000.Idx) (q : d2.contr.Idx) : (d2.lhsIdx i q 0).val = (i 0).val := by
  unfold DotDims.lhsIdx
  rw [dif_neg (show ¬(0 : Fin S32x64.rank) ∈ d2.lhsBatch by decide), dif_pos (show (0 : Fin S32x64.rank) ∈ d2.lhsNonContracting by decide)]
  rfl
theorem lhs2_1 (i : S32x4000.Idx) (q : d2.contr.Idx) : (d2.lhsIdx i q 1).val = (q ⟨0, by decide⟩).val :=
  d2.lhsIdx_val_of_single rfl i q
theorem rhs2_0 (i : S32x4000.Idx) (q : d2.contr.Idx) : (d2.rhsIdx i q 0).val = (q ⟨0, by decide⟩).val :=
  d2.rhsIdx_val_of_single rfl i q
theorem rhs2_1 (i : S32x4000.Idx) (q : d2.contr.Idx) : (d2.rhsIdx i q 1).val = (i 1).val := by
  unfold DotDims.rhsIdx
  rw [dif_neg (show ¬(1 : Fin S64x4000.rank) ∈ d2.rhsBatch by decide), dif_pos (show (1 : Fin S64x4000.rank) ∈ d2.rhsNonContracting by decide)]
  rfl

/-! ## The operations that are not elementwise, each read at an index -/

/-- The first product into the zero accumulator, at (h, r): row h of the left operand against row r of the right. -/
theorem product1_apply (L : FVec Ideal S64x128 .f32) (R : FVec Ideal S4000x128 .f32) (h : Fin 64) (r : Fin 4000) :
    matmul d1 none L R (constant (F := Ideal) S64x4000 .f32 0x00000000#32) (ix2 h r)
      = ∑ k : Fin 128, L (ix2 h k) * R (ix2 r k) := by
  refine (Ideal.matmul_constant_zero_apply d1 none L R (ix2 h r)).trans ?_
  rw [← Equiv.sum_comp (contrEquiv1 d1 128 rfl rfl).symm]
  refine Finset.sum_congr rfl fun k _ => ?_
  have hk := contrEquiv1_symm_val d1 128 rfl rfl k
  have el : d1.lhsIdx (ix2 h r) ((contrEquiv1 d1 128 rfl rfl).symm k) = ix2 h k := funext fun a => Fin.ext (by
    match a with
    | ⟨0, _⟩ => exact lhs1_0 _ _
    | ⟨1, _⟩ => exact (lhs1_1 _ _).trans hk)
  have er : d1.rhsIdx (ix2 h r) ((contrEquiv1 d1 128 rfl rfl).symm k) = ix2 r k := funext fun a => Fin.ext (by
    match a with
    | ⟨0, _⟩ => exact rhs1_0 _ _
    | ⟨1, _⟩ => exact (rhs1_1 _ _).trans hk)
  rw [el, er]

/-- The second product into the zero accumulator, at (c, r): row c of the left operand against column r of the right. -/
theorem product2_apply (L : FVec Ideal S32x64 .f32) (R : FVec Ideal S64x4000 .f32) (c : Fin 32) (r : Fin 4000) :
    matmul d2 none L R (constant (F := Ideal) S32x4000 .f32 0x00000000#32) (ix2 c r)
      = ∑ h : Fin 64, L (ix2 c h) * R (ix2 h r) := by
  refine (Ideal.matmul_constant_zero_apply d2 none L R (ix2 c r)).trans ?_
  rw [← Equiv.sum_comp (contrEquiv1 d2 64 rfl rfl).symm]
  refine Finset.sum_congr rfl fun k _ => ?_
  have hk := contrEquiv1_symm_val d2 64 rfl rfl k
  have el : d2.lhsIdx (ix2 c r) ((contrEquiv1 d2 64 rfl rfl).symm k) = ix2 c k := funext fun a => Fin.ext (by
    match a with
    | ⟨0, _⟩ => exact lhs2_0 _ _
    | ⟨1, _⟩ => exact (lhs2_1 _ _).trans hk)
  have er : d2.rhsIdx (ix2 c r) ((contrEquiv1 d2 64 rfl rfl).symm k) = ix2 k r := funext fun a => Fin.ext (by
    match a with
    | ⟨0, _⟩ => exact (rhs2_0 _ _).trans hk
    | ⟨1, _⟩ => exact rhs2_1 _ _)
  rw [el, er]

/-- The largest entry of column r: the fold of max from the accumulator's word over the 32 rows. -/
theorem columnMax_apply (Z : FVec Ideal S32x4000 .f32) (hφ : FKind.Formats .f32)
    (hacc : (0xFF800000#32 : BitVec 32) = 0xFF800000#32) (r : Fin 4000) :
    multiReduction .maximumf [0] S4000 Z 0xFF800000#32 reduces_S32x4000_S4000 hφ hacc (ix1 r)
      = (Finset.univ : Finset (Fin 32)).fold max (Ideal.ofBits .f32 0xFF800000#32) (fun c => Z (ix2 c r)) := by
  refine (Ideal.multiReduction_maximumf_single Z 0xFF800000#32 reduces_S32x4000_S4000 hφ hacc (ix1 r)).trans ?_
  refine congrArg (fun f => (Finset.univ : Finset (Fin 32)).fold max (Ideal.ofBits .f32 0xFF800000#32) f) ?_
  funext c
  exact congrArg Z (funext fun a => Fin.ext (by match a with | ⟨0, _⟩ => rfl | ⟨1, _⟩ => rfl))

/-- The sum of column r over the 32 rows. -/
theorem columnSum_apply (E : FVec Ideal S32x4000 .f32) (hφ : FKind.Formats .f32)
    (hacc : (0x00000000#32 : BitVec 32) = 0x00000000#32) (r : Fin 4000) :
    multiReduction .add [0] S4000 E 0x00000000#32 reduces_S32x4000_S4000 hφ hacc (ix1 r)
      = ∑ c : Fin 32, E (ix2 c r) := by
  refine (Ideal.multiReduction_add_single E 0x00000000#32 reduces_S32x4000_S4000 hφ hacc (ix1 r)).trans ?_
  refine Finset.sum_congr rfl fun c _ => ?_
  exact congrArg E (funext fun a => Fin.ext (by match a with | ⟨0, _⟩ => rfl | ⟨1, _⟩ => rfl))

/-! ## The body's payload in three stages -/

/-- The hidden layer, transposed [64, 4000]: the first product plus the bias column repeated across the examples, rectified. -/
def hiddenT (v0 : FVec Ideal S4000x128 .f32) (v1 : FVec Ideal S64x128 .f32) (v3 : FVec Ideal S64x1 .f32) : FVec Ideal S64x4000 .f32 :=
  maximumf (addf (matmul d1 none v1 v0 (constant S64x4000 .f32 0x00000000#32))
      (broadcastTo S64x4000 (shapeCast S64x1 v3 Facts₀.shapeCasts_S64x1_S64x1) Facts₀.broadcasts_S64x1_S64x4000))
    (broadcast S64x4000 (Scalar.ofBits .f32 0x00000000#32))

/-- The logits, transposed [32, 4000]: the second product plus the bias column repeated across the examples. -/
def logitsT (v0 : FVec Ideal S4000x128 .f32) (v1 : FVec Ideal S64x128 .f32) (v3 : FVec Ideal S64x1 .f32)
    (v9 : FVec Ideal S32x64 .f32) (v11 : FVec Ideal S32x1 .f32) : FVec Ideal S32x4000 .f32 :=
  addf (matmul d2 none v9 (hiddenT v0 v1 v3) (constant S32x4000 .f32 0x00000000#32))
    (broadcastTo S32x4000 (shapeCast S32x1 v11 Facts₀.shapeCasts_S32x1_S32x1) Facts₀.broadcasts_S32x1_S32x4000)

/-- Each column's largest entry, as a row [1, 4000]. -/
def colTop (Z : FVec Ideal S32x4000 .f32) : FVec Ideal S1x4000 .f32 :=
  shapeCast S1x4000 (multiReduction .maximumf [0] S4000 Z 0xFF800000#32 Facts₀.reduces_S32x4000_S4000 (.inl rfl) rfl)
    Facts₀.shapeCasts_S4000_S1x4000

/-- The columns shifted by their largest entries. -/
def shifted (Z : FVec Ideal S32x4000 .f32) : FVec Ideal S32x4000 .f32 :=
  subf Z (broadcastTo S32x4000 (colTop Z) Facts₀.broadcasts_S1x4000_S32x4000)

/-- The log-softmax down each column, transposed back to [4000, 32]. -/
def finish (Z : FVec Ideal S32x4000 .f32) : FVec Ideal S4000x32 .f32 :=
  transpose S4000x32 [1, 0]
    (subf (shifted Z)
      (broadcastTo S32x4000
        (log (shapeCast S1x4000 (multiReduction .add [0] S4000 (exp (shifted Z)) 0x00000000#32 Facts₀.reduces_S32x4000_S4000 (.inl rfl) rfl)
          Facts₀.shapeCasts_S4000_S1x4000))
        Facts₀.broadcasts_S1x4000_S32x4000))
    Facts₀.transposes_S32x4000_p1_0_S4000x32

/-- The body's one stored value is these three stages composed. -/
theorem pay_eq (v0 : Vec Ideal S4000x128 .f32) (v1 : Vec Ideal S64x128 .f32) (v3 : Vec Ideal S64x1 .f32)
    (v9 : Vec Ideal S32x64 .f32) (v11 : Vec Ideal S32x1 .f32) :
    k0_pay1 (F := Ideal) v0 v1 v3 v9 v11 = finish (logitsT v0 v1 v3 v9 v11) := rfl

/-! ## Each stage at an entry -/

/-- Hidden unit h of the block's example r. -/
theorem hiddenT_apply (v0 : FVec Ideal S4000x128 .f32) (v1 : FVec Ideal S64x128 .f32) (v3 : FVec Ideal S64x1 .f32)
    (h : Fin 64) (r : Fin 4000) :
    hiddenT v0 v1 v3 (ix2 h r)
      = hiddenUnit (fun k => v0 (ix2 r k)) (fun h k => v1 (ix2 h k)) (fun h => v3 (ix2 h (0 : Fin 1))) h := by
  unfold hiddenT hiddenUnit
  exact congrArg₂ max
    (congrArg₂ (· + ·) (product1_apply v1 v0 h r)
      ((broadcastTo_a1_ab_apply _ _ h r).trans (congrFun (shapeCast_self v3 _) _)))
    rfl

/-- Logit c of the block's example r. -/
theorem logitsT_apply (v0 : FVec Ideal S4000x128 .f32) (v1 : FVec Ideal S64x128 .f32) (v3 : FVec Ideal S64x1 .f32)
    (v9 : FVec Ideal S32x64 .f32) (v11 : FVec Ideal S32x1 .f32) (c : Fin 32) (r : Fin 4000) :
    logitsT v0 v1 v3 v9 v11 (ix2 c r)
      = logit (fun k => v0 (ix2 r k)) (fun h k => v1 (ix2 h k)) (fun h => v3 (ix2 h (0 : Fin 1)))
          (fun c h => v9 (ix2 c h)) (fun c => v11 (ix2 c (0 : Fin 1))) c := by
  unfold logitsT logit
  exact congrArg₂ (· + ·)
    ((product2_apply v9 (hiddenT v0 v1 v3) c r).trans
      (Finset.sum_congr rfl fun h _ => congrArg (v9 (ix2 c h) * ·) (hiddenT_apply v0 v1 v3 h r)))
    ((broadcastTo_a1_ab_apply _ _ c r).trans (congrFun (shapeCast_self v11 _) _))

/-- A per-example value laid as a row [1, 4000] and repeated down the 32 rows reads, at (c, r), example r's value. -/
theorem rowRepeat_apply (v : FVec Ideal S4000 .f32) (hs : S4000.ShapeCasts S1x4000) (hb : S1x4000.Broadcasts S32x4000)
    (c : Fin 32) (r : Fin 4000) : broadcastTo S32x4000 (shapeCast S1x4000 v hs) hb (ix2 c r) = v (ix1 r) :=
  (broadcastTo_1b_ab_apply _ hb c r).trans (shapeCast_a_1a_apply v hs 0 r)

/-- The shifted columns at (c, r): the entry less its column's largest. -/
theorem shifted_apply (Z : FVec Ideal S32x4000 .f32) (c : Fin 32) (r : Fin 4000) :
    shifted Z (ix2 c r) = Z (ix2 c r) - top (fun c' => Z (ix2 c' r)) := by
  unfold shifted colTop top
  exact congrArg (Z (ix2 c r) - ·) ((rowRepeat_apply _ _ _ c r).trans (columnMax_apply Z _ _ r))

/-- The last stage at (r, c): the log-softmax of column r at class c. -/
theorem finish_apply (Z : FVec Ideal S32x4000 .f32) (r : Fin 4000) (c : Fin 32) :
    finish Z (ix2 r c) = logSoftmax (fun c' => Z (ix2 c' r)) c := by
  unfold finish logSoftmax
  refine (transpose_ix2_apply _ _ r c).trans ?_
  refine congrArg₂ (· - ·) (shifted_apply Z c r) ?_
  refine (broadcastTo_1b_ab_apply _ _ c r).trans ?_
  show Ideal.log (shapeCast S1x4000 _ _ (ix2 (0 : Fin 1) r)) = _
  refine congrArg Ideal.log ((shapeCast_a_1a_apply _ _ 0 r).trans ?_)
  refine (columnSum_apply _ _ _ r).trans (Finset.sum_congr rfl fun c' _ => ?_)
  show Ideal.exp (shifted Z (ix2 c' r)) = _
  rw [shifted_apply]

/-- ENTRY (r, c) OF THE STORED BLOCK: example r's log-probability of class c, from the block's row r of features, the two
    weight matrices, and the two bias columns read at their one column. -/
theorem pay_apply (v0 : Vec Ideal S4000x128 .f32) (v1 : Vec Ideal S64x128 .f32) (v3 : Vec Ideal S64x1 .f32)
    (v9 : Vec Ideal S32x64 .f32) (v11 : Vec Ideal S32x1 .f32) (r : Fin 4000) (c : Fin 32) :
    k0_pay1 (F := Ideal) v0 v1 v3 v9 v11 (ix2 r c)
      = logProb (fun k => v0 (ix2 r k)) (fun h k => v1 (ix2 h k)) (fun h => v3 (ix2 h (0 : Fin 1)))
          (fun c h => v9 (ix2 c h)) (fun c => v11 (ix2 c (0 : Fin 1))) c := by
  rw [pay_eq, finish_apply]
  unfold logProb
  exact congrArg (fun z => logSoftmax z c) (funext fun c' => logitsT_apply v0 v1 v3 v9 v11 c' r)

end Cert.KernelIdeal.Rows

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.WholeArray.lean ====
/-
  From the stored blocks to the whole array of log-probabilities.

  The grid has 25 points. At point t the window of the examples holds rows 4000 t .. 4000 t + 3999 of the [100000, 128]
  array, the windows of the two weight matrices and of the two bias columns hold those arrays whole (their block index
  is (0, 0) at every point), and the result's window is rows 4000 t .. 4000 t + 3999 of the [100000, 32] result. The bias
  columns are the host's reshapes of the flat biases, so entry (h, 0) of a column is entry h of the flat array. Hence
  entry (r, c) of the block stored at point t is example 4000 t + r's log-probability of class c under the ARGUMENT
  arrays, which is entry (4000 t + r, c) of Cert.LogProb.G: every point writes back its block of ONE whole-array
  function. Every row n lies in the block of point n / 4000, so the blocks cover the array and it ends holding G.
-/
import proofs.«124576_g86260123173820_cont_9to1c4b_648_7_alg».proof.Proof.Gen.KernelIdeal.Value
import proofs.«124576_g86260123173820_cont_9to1c4b_648_7_alg».proof.Proof.BlockRows
import proofs.«124576_g86260123173820_cont_9to1c4b_648_7_alg».proof.Proof.LibKeepdimsColumn
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Rows Cert.LogProb
open Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid, decided: the examples' and the result's windows move one block of rows per
    point, the other four stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result array under the argument arrays, as the kernel's memory holds them. -/
abbrev target (c : Dev nD) : S100000x32.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-! ## The two bias columns the region finds: the host's reshapes -/

theorem V_col1 (c : Dev nD) : (V m c main_v0 : S64x1.Idx → EReal)
    = shapeCast S64x1 (m ((c : Thread nD τ).loc main_arg2)) Facts₀.shapeCasts_S64_S64x1 := by
  dsimp only [Gen.V, Gen.hostOps0]; after_results; rfl

theorem V_col2 (c : Dev nD) : (V m c main_v1 : S32x1.Idx → EReal)
    = shapeCast S32x1 (m ((c : Thread nD τ).loc main_arg4)) Facts₀.shapeCasts_S32_S32x1 := by
  dsimp only [Gen.V, Gen.hostOps0]; after_results; rfl

/-! ## Each input window's block at a point, entry by entry -/

/-- The examples' block at point t: rows 4000 t + r of the argument. -/
theorem block_examples (c : Dev nD) (t : Fin cfg0.N) (r : Fin 4000) (k : Fin 128) (n : Fin 100000)
    (hn : n.val = t.val * 4000 + r.val) :
    (iblk m c 0 t : S4000x128.Idx → EReal) (ix2 r k) = m ((c : Thread nD τ).loc main_arg0) (ix2 n k) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 4000 + 1 * r.val = n.val; omega
  | ⟨1, _⟩ => show win0_0.index t (1 : Fin 2) * 128 + 1 * k.val = k.val; omega

/-- The first weight matrix's block at any point is the matrix. -/
theorem block_W1 (c : Dev nD) (t : Fin cfg0.N) (h : Fin 64) (k : Fin 128) :
    (iblk m c 1 t : S64x128.Idx → EReal) (ix2 h k) = m ((c : Thread nD τ).loc main_arg1) (ix2 h k) := by
  obtain ⟨-, -, e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 64 + 1 * h.val = h.val; omega
  | ⟨1, _⟩ => show win0_1.index t (1 : Fin 2) * 128 + 1 * k.val = k.val; omega

/-- The first bias column's block at any point, at its one column: the flat bias. -/
theorem block_b1 (c : Dev nD) (t : Fin cfg0.N) (h : Fin 64) :
    (iblk m c 2 t : S64x1.Idx → EReal) (ix2 h (0 : Fin 1)) = m ((c : Thread nD τ).loc main_arg2) (ix1 h) := by
  obtain ⟨-, -, -, -, e0, e1, -⟩ := idx_facts t
  unfold iblk
  rw [View.read_apply]
  show (V m c main_v0 : S64x1.Idx → EReal) _ = _
  rw [V_col1]
  refine Eq.trans (congrArg _ (funext fun a => Fin.ext ?_)) (Cert.LibKeepdims.shapeCast_a_a1_apply _ _ h (0 : Fin 1))
  match a with
  | ⟨0, _⟩ => show win0_2.index t (0 : Fin 2) * 64 + 1 * h.val = h.val; omega
  | ⟨1, _⟩ => show win0_2.index t (1 : Fin 2) * 1 + 1 * 0 = 0; omega

/-- The second weight matrix's block at any point is the matrix. -/
theorem block_W2 (c : Dev nD) (t : Fin cfg0.N) (q : Fin 32) (h : Fin 64) :
    (iblk m c 3 t : S32x64.Idx → EReal) (ix2 q h) = m ((c : Thread nD τ).loc main_arg3) (ix2 q h) := by
  obtain ⟨-, -, -, -, -, -, e0, e1, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 32 + 1 * q.val = q.val; omega
  | ⟨1, _⟩ => show win0_3.index t (1 : Fin 2) * 64 + 1 * h.val = h.val; omega

/-- The second bias column's block at any point, at its one column: the flat bias. -/
theorem block_b2 (c : Dev nD) (t : Fin cfg0.N) (q : Fin 32) :
    (iblk m c 4 t : S32x1.Idx → EReal) (ix2 q (0 : Fin 1)) = m ((c : Thread nD τ).loc main_arg4) (ix1 q) := by
  obtain ⟨-, -, -, -, -, -, -, -, e0, e1, -⟩ := idx_facts t
  unfold iblk
  rw [View.read_apply]
  show (V m c main_v1 : S32x1.Idx → EReal) _ = _
  rw [V_col2]
  refine Eq.trans (congrArg _ (funext fun a => Fin.ext ?_)) (Cert.LibKeepdims.shapeCast_a_a1_apply _ _ q (0 : Fin 1))
  match a with
  | ⟨0, _⟩ => show win0_4.index t (0 : Fin 2) * 32 + 1 * q.val = q.val; omega
  | ⟨1, _⟩ => show win0_4.index t (1 : Fin 2) * 1 + 1 * 0 = 0; omega

/-! ## What a point writes back -/

/-- Entry (r, q) of what point t stores is entry (4000 t + r, q) of the target. -/
theorem stored_entry (c : Dev nD) (t : Fin cfg0.N) (r : Fin 4000) (q : Fin 32) (n : Fin 100000)
    (hn : n.val = t.val * 4000 + r.val) :
    k0_pay1 (F := Ideal) (iblk m c 0 t) (iblk m c 1 t) (iblk m c 2 t) (iblk m c 3 t) (iblk m c 4 t) (ix2 r q)
      = target m c (ix2 n q) := by
  refine (pay_apply _ _ _ _ _ r q).trans ?_
  unfold target
  rw [G_apply]
  congr 1
  · funext k; exact block_examples m c t r k n hn
  · funext h k; exact block_W1 m c t h k
  · funext h; exact block_b1 m c t h
  · funext q' h; exact block_W2 m c t q' h
  · funext q'; exact block_b2 m c t q'

/-- WHAT POINT t WRITES BACK is block t of the target. -/
theorem flushed_eq (c : Dev nD) (t : Fin cfg0.N) :
    (dats m 0 c).flushed 5 t = ((cfg0.win 5).blk t).view.read (Elt Ideal) (target m c) := by
  rw [flushed5]
  unfold out0_5
  rw [View.canon_unit_zero hz]
  simp only [View.ld_unit_zero (S := S4000x128) hz, View.ld_unit_zero (S := S64x128) hz, View.ld_unit_zero (S := S64x1) hz,
    View.ld_unit_zero (S := S32x64) hz, View.ld_unit_zero (S := S32x1) hz]
  obtain ⟨-, -, -, -, -, -, -, -, -, -, e0, e1⟩ := idx_facts t
  funext j
  have hN : cfg0.N = 25 := N_0
  have hj0 : (j 0).val < 4000 := (j 0).isLt
  have ht : t.val < 25 := hN ▸ t.isLt
  show k0_pay1 (F := Ideal) (iblk m c 0 t) (iblk m c 1 t) (iblk m c 2 t) (iblk m c 3 t) (iblk m c 4 t) j
    = target m c (((cfg0.win 5).blk t).view.emb j)
  refine Eq.trans (congrArg _ (eq_ix2 (n0 := 4000) (n1 := 32) j)) ?_
  refine (stored_entry m c t (j 0) (j 1) ⟨t.val * 4000 + (j 0).val, by omega⟩ rfl).trans ?_
  refine congrArg (target m c) (funext fun a => Fin.ext ?_)
  match a with
  | ⟨0, _⟩ => show t.val * 4000 + (j 0).val = win0_5.index t (0 : Fin 2) * 4000 + 1 * (j 0).val; omega
  | ⟨1, _⟩ => show (j 1).val = win0_5.index t (1 : Fin 2) * 32 + 1 * (j 1).val; omega

/-! ## The blocks cover the array -/

/-- An index of the result is in point t's block iff each coordinate is in the block's range on its axis. -/
theorem mem_blk (t : Fin cfg0.N) (i : S100000x32.Idx) :
    i ∈ ((cfg0.win 5).blk t).view.set ↔ ∀ a : Fin 2, win0_5.index t a * S4000x32.size a ≤ (i a).val
      ∧ (i a).val < win0_5.index t a * S4000x32.size a + S4000x32.size a := by
  show i ∈ ((View.whole main_v2).slice (win0_5.rect t)).set ↔ _
  rw [View.set_slice_whole, Rect.mem_set_unit]
  exact Iff.rfl

/-- Row n of the result lies in the block of point n / 4000. -/
theorem cover (i : S100000x32.Idx) : ∃ t : Fin cfg0.N, (cfg0.win 5).flush t = true ∧ i ∈ ((cfg0.win 5).blk t).view.set := by
  have hN : cfg0.N = 25 := N_0
  have hi0 : (i 0).val < 100000 := (i 0).isLt
  have hi1 : (i 1).val < 32 := (i 1).isLt
  have ht : (i 0).val / 4000 < cfg0.N := by rw [hN]; omega
  refine ⟨⟨(i 0).val / 4000, ht⟩, flush0_5 _, ?_⟩
  rw [mem_blk]
  obtain ⟨-, -, -, -, -, -, -, -, -, -, e0, e1⟩ := idx_facts ⟨(i 0).val / 4000, ht⟩
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ (1 : Fin 2) * 32 ≤ (i 1).val
      ∧ (i 1).val < win0_5.index ⟨(i 0).val / 4000, ht⟩ (1 : Fin 2) * 32 + 32
    rw [e1]; omega

/-! ## The array after the run, and the run -/

/-- The result array ends holding the target. -/
theorem final (c : Dev nD) : (dats m 0 c).arrAt 5 cfg0.N = target m c :=
  (dats m 0 c).arrAt_eq_of_cover 5 (target m c) (fun t _ => flushed_eq m c t) cover

/-- The kernel's run, read: the result at the target, the five arguments unchanged. -/
theorem run : θ_run defs (onTc (τ := τ) (main (F := Ideal))) ⟨m, fun _ => 0, ρ⟩ fun r => ∀ c : Dev nD,
      r.2.mem ((c : Thread nD τ).loc main_v2) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.ReferenceRows.lean ====
/-
  The reference computes the same function, example by example.

  The reference works untransposed: examples down the rows, hidden units and classes across the columns. Read at an
  entry, its first product is sum_k x[n,k] * W1[h,k] (it transposes W1 first), its second is
  sum_h hidden[n,h] * W2[c,h], the biases are flat arrays repeated down the rows, and its log-softmax runs along each
  row: the largest logit of the row (a fold of max from minus infinity, then one more maximum with minus infinity, which
  changes nothing), the row shifted by it, the sum of the exponentials from zero, its logarithm. Up to the order of the
  two factors in each product and the zero the sum starts from, that is Cert.LogProb.logProb of row n, entry by
  entry: commutativity of the product and 0 + s = s on the extended reals, nothing that needs a finite input.
-/
import proofs.«124576_g86260123173820_cont_9to1c4b_648_7_alg».proof.Proof.ReferenceRead
import proofs.«124576_g86260123173820_cont_9to1c4b_648_7_alg».proof.Proof.LogProb
import Idealize.ShloMosaic.Lib.ValueIdx
import Idealize.ShloMosaic.PureOps.Ideal.Laws

noncomputable section

open scoped BigOperators

namespace Cert.ReferenceIdeal.Rows

open Cert.ReferenceIdeal Cert.ReferenceIdeal.Gen Cert.ReferenceIdeal.ReadP Cert.LogProb
open Idealize.ShloMosaic Idealize.ShloMosaic.ValueIdx

variable (x0 : (⟨S100000x128, .f32⟩ : BufTy).Contents (Elt Ideal)) (x1 : (⟨S64x128, .f32⟩ : BufTy).Contents (Elt Ideal))
  (x2 : (⟨S64, .f32⟩ : BufTy).Contents (Elt Ideal)) (x3 : (⟨S32x64, .f32⟩ : BufTy).Contents (Elt Ideal))
  (x4 : (⟨S32, .f32⟩ : BufTy).Contents (Elt Ideal))

/-- Hidden unit h of example n. -/
theorem hidden_apply (n : Fin 100000) (h : Fin 64) :
    val_main_v5 (F := Ideal) x0 x1 x2 (ix2 n h)
      = hiddenUnit (fun k => x0 (ix2 n k)) (fun h k => x1 (ix2 h k)) (fun h => x2 (ix1 h)) h := by
  have el : ∀ k : Fin 128, lidx_main_v1 (ix2 n h) k = ix2 n k := fun k =>
    funext fun a => Fin.ext (by match a with | ⟨0, _⟩ => rfl | ⟨1, _⟩ => rfl)
  have er : ∀ k : Fin 128, idx_main_v0 (ridx_main_v1 (ix2 n h) k) = ix2 h k := fun k =>
    funext fun a => Fin.ext (by match a with | ⟨0, _⟩ => rfl | ⟨1, _⟩ => rfl)
  have eb : idx_main_v2 (idx_main_v3 (ix2 n h)) = ix1 h :=
    funext fun a => Fin.ext (by match a with | ⟨0, _⟩ => rfl)
  rw [val_main_v5_apply, val_main_v4_apply, val_main_v1_apply, val_main_v3_apply, val_main_v2_apply,
    val_main_call0_v0_apply, val_main_call0_cst_apply, eb]
  unfold hiddenUnit
  refine congrArg₂ max (congrArg₂ (· + ·) (Finset.sum_congr rfl fun k _ => ?_) rfl) rfl
  rw [val_main_v0_apply, el, er]
  exact mul_comm _ _

/-- Logit c of example n. -/
theorem logit_apply (n : Fin 100000) (c : Fin 32) :
    val_main_v10 (F := Ideal) x0 x1 x2 x3 x4 (ix2 n c)
      = logit (fun k => x0 (ix2 n k)) (fun h k => x1 (ix2 h k)) (fun h => x2 (ix1 h)) (fun c h => x3 (ix2 c h))
          (fun c => x4 (ix1 c)) c := by
  have el : ∀ k : Fin 64, lidx_main_v7 (ix2 n c) k = ix2 n k := fun k =>
    funext fun a => Fin.ext (by match a with | ⟨0, _⟩ => rfl | ⟨1, _⟩ => rfl)
  have er : ∀ k : Fin 64, idx_main_v6 (ridx_main_v7 (ix2 n c) k) = ix2 c k := fun k =>
    funext fun a => Fin.ext (by match a with | ⟨0, _⟩ => rfl | ⟨1, _⟩ => rfl)
  have eb : idx_main_v8 (idx_main_v9 (ix2 n c)) = ix1 c :=
    funext fun a => Fin.ext (by match a with | ⟨0, _⟩ => rfl)
  rw [val_main_v10_apply, val_main_v7_apply, val_main_v9_apply, val_main_v8_apply, eb]
  unfold logit
  refine congrArg₂ (· + ·) (Finset.sum_congr rfl fun k _ => ?_) rfl
  rw [val_main_v6_apply, el, er, hidden_apply]
  exact mul_comm _ _

/-- The logits of example n as a function of the class. -/
abbrev rowLogits (n : Fin 100000) : Fin 32 → EReal :=
  logit (fun k => x0 (ix2 n k)) (fun h k => x1 (ix2 h k)) (fun h => x2 (ix1 h)) (fun c h => x3 (ix2 c h)) (fun c => x4 (ix1 c))

/-- The largest logit of example n: the reduce's fold of max over the 32 classes, from the word of minus infinity; the
    further maximum with minus infinity is absorbed. -/
theorem rowTop_apply (n : Fin 100000) :
    val_main_call1_v2 (F := Ideal) x0 x1 x2 x3 x4 (ix1 n) = top (rowLogits x0 x1 x2 x3 x4 n) := by
  have hr : S100000x32.Reduces [1] S100000 := by decide
  rw [val_main_call1_v2_apply, val_main_call1_v1_apply, val_main_call1_cst_0_apply]
  have hfold : val_main_call1_v0 (F := Ideal) x0 x1 x2 x3 x4 (ix1 n) = top (rowLogits x0 x1 x2 x3 x4 n) := by
    unfold val_main_call1_v0 top
    refine (Host.reduce_eq_fold_single FloatOps.maximumf _ _ Facts₀.reducesTo_S100000x32_S100000_d1 hr Facts₀.h_S_ (ix1 n)).trans ?_
    refine congrArg (fun f => (Finset.univ : Finset (Fin 32)).fold max (Ideal.ofBits .f32 0xFF800000#32) f) ?_
    funext c
    have e : hr.lift (ix1 n) c = ix2 n c := funext fun a => Fin.ext (by match a with | ⟨0, _⟩ => rfl | ⟨1, _⟩ => rfl)
    show val_main_v10 (F := Ideal) x0 x1 x2 x3 x4 (hr.lift (ix1 n) c) = _
    rw [e]
    exact logit_apply x0 x1 x2 x3 x4 n c
  rw [hfold]
  exact max_start_top _

/-- The shifted logit c of example n. -/
theorem shifted_apply (n : Fin 100000) (c : Fin 32) :
    val_main_call1_v5 (F := Ideal) x0 x1 x2 x3 x4 (ix2 n c)
      = rowLogits x0 x1 x2 x3 x4 n c - top (rowLogits x0 x1 x2 x3 x4 n) := by
  have e : idx_main_call1_v3 (idx_main_call1_v4 (ix2 n c)) = ix1 n :=
    funext fun a => Fin.ext (by match a with | ⟨0, _⟩ => rfl)
  rw [val_main_call1_v5_apply, val_main_call1_v4_apply, val_main_call1_v3_apply, e, rowTop_apply, logit_apply]
  rfl

/-- THE REFERENCE'S RESULT is the target function of its arguments. -/
theorem result_eq : val_main_v11 (F := Ideal) x0 x1 x2 x3 x4 = G x0 x1 x2 x3 x4 := by
  funext i
  obtain ⟨n, c, rfl⟩ : ∃ (n : Fin 100000) (c : Fin 32), i = ix2 n c := ⟨i 0, i 1, eq_ix2 i⟩
  have e8 : idx_main_call1_v8 (idx_main_call1_v10 (ix2 n c)) = ix1 n :=
    funext fun a => Fin.ext (by match a with | ⟨0, _⟩ => rfl)
  have e7 : ∀ k : Fin 32, idx_main_call1_v7 (ix1 n) k = ix2 n k := fun k =>
    funext fun a => Fin.ext (by match a with | ⟨0, _⟩ => rfl | ⟨1, _⟩ => rfl)
  rw [G_apply, val_main_v11_apply, shifted_apply, val_main_call1_v10_apply, val_main_call1_v9_apply,
    val_main_call1_v8_apply, e8, val_main_call1_v7_apply, val_main_call1_cst_1_apply]
  unfold logProb logSoftmax
  refine congrArg₂ (· - ·) rfl (congrArg Ideal.log ?_)
  show Ideal.ofBits .f32 0x00000000#32 + _ = _
  rw [Ideal.ofBits_zero_f32, zero_add]
  refine Finset.sum_congr rfl fun k _ => ?_
  rw [val_main_call1_v6_apply, e7, shifted_apply]
  rfl

end Cert.ReferenceIdeal.Rows

end
-- ==== Proof.lean ====
/-
  A two-layer classifier's log-probabilities: the kernel against its reference, on the extended reals.

  Both programs compute, for each of 100000 examples x (a row of 128 features),
      z = W2 relu (W1 x + b1) + b2   (32 logits),   result_c = z_c - M - log (sum over c' of exp (z_c' - M)),   M = max over c' of z_c'.
  The kernel takes the examples 4000 at a time and works transposed (units and classes down the rows, the block's
  examples across the columns), writes its log-softmax out by hand and transposes back; the reference works on the whole
  array untransposed and calls a library log-softmax, which takes one more maximum with minus infinity. Entry by entry
  both are Cert.LogProb.logProb of the example's row and the weights (Proof/LogProb.lean): the kernel by
  Proof/BlockRows.lean (the stored block entry by entry) and Proof/WholeArray.lean (block t is rows 4000 t .. 4000 t + 3999
  of one whole-array function; the 25 blocks cover the array), the reference by Proof/ReferenceRows.lean. What joins them
  is the commutativity of the product inside each sum, 0 + s = s, and max (-inf) y = y for a y that is itself a fold of max
  from -inf: laws of the extended reals that hold at the infinities too, so the precondition (finite inputs) is never opened.

  The three frames are the generated frame runs (the reference's is its run with the result dropped); the idealization
  rewrote nothing, so it is preserved trivially.
-/
import proofs.«124576_g86260123173820_cont_9to1c4b_648_7_alg».proof.Defs
import proofs.«124576_g86260123173820_cont_9to1c4b_648_7_alg».proof.Proof.Gen.Kernel
import proofs.«124576_g86260123173820_cont_9to1c4b_648_7_alg».proof.Proof.Gen.Kernel.Frame
import proofs.«124576_g86260123173820_cont_9to1c4b_648_7_alg».proof.Proof.Gen.KernelIdeal
import proofs.«124576_g86260123173820_cont_9to1c4b_648_7_alg».proof.Proof.Gen.KernelIdeal.Frame
import proofs.«124576_g86260123173820_cont_9to1c4b_648_7_alg».proof.Proof.Gen.KernelIdeal.Value
import proofs.«124576_g86260123173820_cont_9to1c4b_648_7_alg».proof.Proof.Gen.ReferenceIdeal
import proofs.«124576_g86260123173820_cont_9to1c4b_648_7_alg».proof.Proof.Gen.Pre_finite_inputs
import proofs.«124576_g86260123173820_cont_9to1c4b_648_7_alg».proof.Proof.ReferenceRun
import proofs.«124576_g86260123173820_cont_9to1c4b_648_7_alg».proof.Proof.ReferenceRead
import proofs.«124576_g86260123173820_cont_9to1c4b_648_7_alg».proof.Proof.WholeArray
import proofs.«124576_g86260123173820_cont_9to1c4b_648_7_alg».proof.Proof.ReferenceRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the five arguments both programs end with the result at Cert.LogProb.G of those
    arguments: the kernel by its blocks, the reference by its stages. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, Cert.ReferenceIdeal.Rows.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
